-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x128 .f32) (main_arg3 : FVec F S128 .f32) (main_arg4 : FVec F S128x64 .f32) (main_arg5 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x256 : Shape := ⟨2, ![2000, 256]⟩
abbrev S2000x128 : Shape := ⟨2, ![2000, 128]⟩
abbrev S850000x128 : Shape := ⟨2, ![850000, 128]⟩
abbrev S10000x128 : Shape := ⟨2, ![10000, 128]⟩
abbrev S1x128 : Shape := ⟨2, ![1, 128]⟩
abbrev S50000x64 : Shape := ⟨2, ![50000, 64]⟩
abbrev S2000x64 : Shape := ⟨2, ![2000, 64]⟩
abbrev S850000x64 : Shape := ⟨2, ![850000, 64]⟩
abbrev S10000x64 : Shape := ⟨2, ![10000, 64]⟩
abbrev S1x64 : Shape := ⟨2, ![1, 64]⟩

abbrev nBuf : Space → Nat
  | .hbm => 81
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S850000x1, .f32⟩
  | .hbm, ⟨47, _⟩ => ⟨S50000x128, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S50000x128, .f32⟩
  | .hbm, ⟨64, _⟩ => ⟨S50000x64, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000x64, .f32⟩
  | .hbm, ⟨74, _⟩ => ⟨S850000x64, .f32⟩
  | .hbm, ⟨75, _⟩ => ⟨S850000x64, .f32⟩
  | .hbm, ⟨76, _⟩ => ⟨S_, .f32⟩
  | .hbm, ⟨77, _⟩ => ⟨S50000x64, .f32⟩
  | .hbm, ⟨78, _⟩ => ⟨S850000x1, .i32⟩
  | .hbm, ⟨79, _⟩ => ⟨S50000x64, .f32⟩
  | .hbm, ⟨80, _⟩ => ⟨S50000x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S10000x128, .f32⟩
  | .local _ .vmem, ⟨6, _⟩ => ⟨S10000x128, .f32⟩
  | .local _ .vmem, ⟨7, _⟩ => ⟨S128, .f32⟩
  | .local _ .vmem, ⟨8, _⟩ => ⟨S10000x128, .f32⟩
  | .local _ .vmem, ⟨9, _⟩ => ⟨S10000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S10000x64, .f32⟩
  | .local _ .vmem, ⟨16, _⟩ => ⟨S10000x64, .f32⟩
  | .local _ .vmem, ⟨17, _⟩ => ⟨S64, .f32⟩
  | .local _ .vmem, ⟨18, _⟩ => ⟨S10000x64, .f32⟩
  | .local _ .vmem, ⟨19, _⟩ => ⟨S10000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  inb_S128_S128_0 : ∀ a, (![0] : Fin 1 → Nat) a + S128.size a ≤ S128.size a
  h_S128 : 0 < S128.numel
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  inb_S64_S64_0 : ∀ a, (![0] : Fin 1 → Nat) a + S64.size a ≤ S64.size a
  h_S64 : 0 < S64.numel
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S50000x64.size a
  hwx3_2 : ∀ i : grid3.Coords, EltTy.bits .f32 = 32 ∨ (Rect.block (s := S50000x64) S10000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  The two-layer graph convolution, stage by stage, as functions of arrays.

  The edge list is a [2, 800000] array of node numbers; each row, followed by the 50000 node numbers themselves (one
  self-loop per node), gives the 850000 message sources and the 850000 message targets.  A node's degree is the number of
  messages it receives; a message's weight is the product of the inverse square roots of its two ends' degrees (zero
  where the degree is not positive).  One aggregation sends every node the weighted sum of the feature rows of the
  sources of its messages.  A layer is a matrix product, an aggregation, and the bias added to every row; between the
  two layers the negative entries are replaced by zero.

  Every stage is spelt with the host operations of the reference program, so that the reference's result is these
  functions composed, and each stretch of the kernel program can be met stage by stage.
-/
import proofs.«103927_j22376779612651_1_alg».proof.ReferenceIdeal
import proofs.«103927_j22376779612651_1_alg».proof.Proof.Gen.ReferenceIdeal

noncomputable section

namespace Cert.Gcn

open Idealize.ShloMosaic Cert.ReferenceIdeal Cert.ReferenceIdeal.Gen

variable {F : FTy → Type} [FloatOps F]

/-- The message sources: row 0 of the edge list, then every node once. -/
def sources (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The message targets: row 1 of the edge list, then every node once. -/
def targets (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A node number counted from the end when negative: 50000 is added to it. -/
def wrapped (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- Each node's degree: the number of messages whose target it is. -/
def degree (ei : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 (targets (F := F) ei)) (broadcastInDim S850000 ![] bcast_S_S850000 (constant S_ .f32 0x3F800000#32))

/-- Where the degree is positive. -/
def degreePositive (ei : (⟨S2x800000, .i32⟩ : BufTy).Contents (Elt F)) : (⟨S50000, .i1⟩ : BufTy).Contents (Elt F) :=
  cmpf (F := F) .ogt (degree (F := F) ei) (broadcastInDim S50000 ![] bcast_S_S50000 (constant S_ .f32 0x00000000#32))

/-- The inverse square root of each node's degree, wherever it is taken. -/
def degreeRsqrt (ei : (⟨S2x800000, .i32⟩ : BufTy).Contents (Elt F)) : (⟨S50000, .f32⟩ : BufTy).Contents (Elt F) :=
  Host.rsqrt (degree (F := F) ei)

/-- The scalar zero. -/
def zeroScalar : (⟨S_, .f32⟩ : BufTy).Contents (Elt F) := constant S_ .f32 0x00000000#32

/-- The choice between an array and a scalar repeated over the nodes: the array where the mask holds. -/
def invSqrtFrom (pos : (⟨S50000, .i1⟩ : BufTy).Contents (Elt F)) (rs : (⟨S50000, .f32⟩ : BufTy).Contents (Elt F))
    (z : (⟨S_, .f32⟩ : BufTy).Contents (Elt F)) : (⟨S50000, .f32⟩ : BufTy).Contents (Elt F) :=
  select pos rs (broadcastInDim S50000 ![] bcast_S_S50000 (id z))

/-- The inverse square root of each node's degree, zero where the degree is not positive. -/
def invSqrtDegree (ei : (⟨S2x800000, .i32⟩ : BufTy).Contents (Elt F)) : (⟨S50000, .f32⟩ : BufTy).Contents (Elt F) :=
  invSqrtFrom (F := F) (degreePositive (F := F) ei) (degreeRsqrt (F := F) ei) (zeroScalar (F := F))

/-- Each message's weight, the product of a per-node factor at its source and at its target, kept as a column. -/
def weightColumnFrom (dinv : (⟨S50000, .f32⟩ : BufTy).Contents (Elt F)) (src dst : (⟨S850000, .i32⟩ : BufTy).Contents (Elt F)) :
    (⟨S850000x1, .f32⟩ : BufTy).Contents (Elt F) :=
  broadcastInDim S850000x1 ![0] bcast_S850000_S850000x1_0 (mulf (Host.gather gather_S50000_S850000x1_S850000_n_0_n_n_0_1_1 dinv (broadcastInDim S850000x1 ![0] bcast_S850000_S850000x1_0 (wrapped (F := F) src))) (Host.gather gather_S50000_S850000x1_S850000_n_0_n_n_0_1_1 dinv (broadcastInDim S850000x1 ![0] bcast_S850000_S850000x1_0 (wrapped (F := F) dst))))

/-- The messages' weights as a column: the inverse square roots of the degrees at each message's two ends, multiplied. -/
def weightColumn (ei : (⟨S2x800000, .i32⟩ : BufTy).Contents (Elt F)) : (⟨S850000x1, .f32⟩ : BufTy).Contents (Elt F) :=
  weightColumnFrom (F := F) (invSqrtDegree (F := F) ei) (sources (F := F) ei) (targets (F := F) ei)

/-- One aggregation of 128-wide rows: every node receives the weighted rows of its messages' sources, summed. -/
def aggregate128 (h : (⟨S50000x128, .f32⟩ : BufTy).Contents (Elt F)) (src dst : (⟨S850000, .i32⟩ : BufTy).Contents (Elt F))
    (wcol : (⟨S850000x1, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 dst) (mulf (Host.gather gather_S50000x128_S850000x1_S850000x128_1_0_n_n_0_1_1128 h (broadcastInDim S850000x1 ![0] bcast_S850000_S850000x1_0 (wrapped (F := F) src))) (broadcastInDim S850000x128 ![0, 1] bcast_S850000x1_S850000x128_0_1 wcol))

/-- One aggregation of 64-wide rows. -/
def aggregate64 (h : (⟨S50000x64, .f32⟩ : BufTy).Contents (Elt F)) (src dst : (⟨S850000, .i32⟩ : BufTy).Contents (Elt F))
    (wcol : (⟨S850000x1, .f32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32)) (broadcastInDim S850000x1 ![0] bcast_S850000_S850000x1_0 dst) (mulf (Host.gather gather_S50000x64_S850000x1_S850000x64_1_0_n_n_0_1_164 h (broadcastInDim S850000x1 ![0] bcast_S850000_S850000x1_0 (wrapped (F := F) src))) (broadcastInDim S850000x64 ![0, 1] bcast_S850000x1_S850000x64_0_1 wcol))

/-- The first layer's matrix product: the node features times the [256, 128] weights. -/
def product1 (x : (⟨S50000x256, .f32⟩ : BufTy).Contents (Elt F)) (W1 : (⟨S256x128, .f32⟩ : BufTy).Contents (Elt F)) :
    (⟨S50000x128, .f32⟩ : BufTy).Contents (Elt F) :=
  Host.dotGeneral dot_S50000x256_S256x128_S50000x128_1_0_0_1_n_n none x W1

/-- The second layer's matrix product: the hidden features times the [128, 64] weights. -/
def product2 (h : (⟨S50000x128, .f32⟩ : BufTy).Contents (Elt F)) (W2 : (⟨S128x64, .f32⟩ : BufTy).Contents (Elt F)) :
    (⟨S50000x64, .f32⟩ : BufTy).Contents (Elt F) :=
  Host.dotGeneral dot_S50000x128_S128x64_S50000x64_1_0_0_1_n_n none h W2

/-- The first bias added to every row of an aggregate, and the negative entries replaced by zero. -/
def biasRelu (a : (⟨S50000x128, .f32⟩ : BufTy).Contents (Elt F)) (b1 : (⟨S128, .f32⟩ : BufTy).Contents (Elt F)) :
    (⟨S50000x128, .f32⟩ : BufTy).Contents (Elt F) :=
  maximumf (addf a (broadcastInDim S50000x128 ![0, 1] bcast_S1x128_S50000x128_0_1 (broadcastInDim S1x128 ![1] bcast_S128_S1x128_1 b1))) (broadcastInDim S50000x128 ![] bcast_S_S50000x128 (constant S_ .f32 0x00000000#32))

/-- The second bias added to every row of an aggregate. -/
def biasAdd (a : (⟨S50000x64, .f32⟩ : BufTy).Contents (Elt F)) (b2 : (⟨S64, .f32⟩ : BufTy).Contents (Elt F)) :
    (⟨S50000x64, .f32⟩ : BufTy).Contents (Elt F) :=
  addf a (broadcastInDim S50000x64 ![0, 1] bcast_S1x64_S50000x64_0_1 (broadcastInDim S1x64 ![1] bcast_S64_S1x64_1 b2))

/-- The network's result from the feature array, the edge list and the two layers' weights and biases. -/
def network (x : (⟨S50000x256, .f32⟩ : BufTy).Contents (Elt F)) (ei : (⟨S2x800000, .i32⟩ : BufTy).Contents (Elt F))
    (W1 : (⟨S256x128, .f32⟩ : BufTy).Contents (Elt F)) (b1 : (⟨S128, .f32⟩ : BufTy).Contents (Elt F))
    (W2 : (⟨S128x64, .f32⟩ : BufTy).Contents (Elt F)) (b2 : (⟨S64, .f32⟩ : BufTy).Contents (Elt F)) :
    (⟨S50000x64, .f32⟩ : BufTy).Contents (Elt F) :=
  biasAdd (aggregate64 (product2 (biasRelu (aggregate128 (product1 x W1) (sources (F := F) ei) (targets (F := F) ei) (weightColumn (F := F) ei)) b1) W2)
    (sources (F := F) ei) (targets (F := F) ei) (weightColumn (F := F) ei)) b2

end Cert.Gcn

end
-- ==== Proof.RefSpec.lean ====
/-
  The reference program computes the specification.

  The reference's run ends with its result buffer at one composed term of the six argument arrays.  That term is,
  operation for operation, the specification's stages composed: the message ends from the edge list, the weights from
  the degrees, and for each layer the product, the aggregation and the bias (with the maximum against zero between the
  layers).  Naming the stages changes nothing, so the two are equal by unfolding the names.
-/
import proofs.«103927_j22376779612651_1_alg».proof.Proof.RefRun
import proofs.«103927_j22376779612651_1_alg».proof.Proof.Spec

noncomputable section

namespace Cert.ReferenceIdeal.RefValue

open Idealize.ShloMosaic Idealize.ShloMosaic.TcCoe Idealize.SL.Sem
open Cert.ReferenceIdeal Cert.ReferenceIdeal.Gen

variable {F : FTy → Type} [FloatOps F]

set_option maxRecDepth 8192 in
/-- The reference's result term is the specification's network of the argument arrays. -/
theorem result_eq (m : (ℓ : Loc nD τ sig) → Buf (Elt F) ℓ) (c : Dev nD) :
    Cert.ReferenceIdeal.ValueP.res_main_v64 m c
      = Cert.Gcn.network (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v64 Cert.Gcn.network Cert.Gcn.biasAdd Cert.Gcn.aggregate64 Cert.Gcn.product2
    Cert.Gcn.biasRelu Cert.Gcn.aggregate128 Cert.Gcn.product1 Cert.Gcn.weightColumn Cert.Gcn.weightColumnFrom Cert.Gcn.invSqrtDegree
    Cert.Gcn.invSqrtFrom Cert.Gcn.degreePositive Cert.Gcn.degreeRsqrt Cert.Gcn.zeroScalar Cert.Gcn.degree Cert.Gcn.wrapped Cert.Gcn.sources
    Cert.Gcn.targets
  rfl

end Cert.ReferenceIdeal.RefValue

end
-- ==== Proof.KernelRun.lean ====
/-
  The idealized kernel program's run with its result named.

  The program is nine segments: three stretches of host operations, the first matrix-product region, a stretch, the
  bias region and the second matrix-product region back to back, a stretch, and the last bias region.  The buffer
  contents at each boundary are a fold from the launch memory; after the last segment every buffer the program does not
  scope holds the fold's last stage.  Read at the result buffer this gives the run below: every weakly fair execution
  terminates, the result array ends at the last stage's contents of that buffer, and the six arguments end as launched.
-/
import proofs.«103927_j22376779612651_1_alg».proof.Proof.Gen.KernelIdeal.Frame

set_option maxRecDepth 16384

noncomputable section

namespace Cert.KernelIdeal.Boundary

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents of its buffer, the arguments as launched. -/
theorem run : θ_run defs (onTc (τ := τ) (main (F := F))) ⟨m, fun _ => 0, ρ⟩ (fun r => ∀ c : Dev nD,
      r.2.mem ((c.tc : Thread nD τ).loc main_v58) = W9 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v58 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Boundary

end
-- ==== Proof.Entry.lean ====
/-
  The kernel program before its first region: what the host operations leave.

  Before the first region the program runs 41 host operations on the edge list, in three stretches.  The first builds
  the message sources and targets (each row of the edge list followed by every node number), the nodes' degrees, where
  they are positive, and their inverse square roots; the second (an outlined choice) keeps the inverse square root where
  the degree is positive and zero elsewhere; the third gathers that factor at each message's two ends, multiplies, and
  keeps the weights as a column.  These are the reference's own operations on the same argument.  Each stretch is
  read from ARBITRARY contents before it — what it writes as the specification's stage of what it reads, what it does
  not write as kept — and the three readings compose: the buffers the later stretches read hold the specification's
  sources, targets and weight column of the edge list.  No operation writes an argument buffer, so the six arguments
  are still as launched.
-/
import proofs.«103927_j22376779612651_1_alg».proof.Proof.Gen.KernelIdeal.Frame
import proofs.«103927_j22376779612651_1_alg».proof.Proof.Spec
import Idealize.ShloMosaic.PureOps.Ideal
import Idealize.ShloMosaic.Lib.StableHlo.Run

set_option maxRecDepth 16384

noncomputable section

namespace Cert.KernelIdeal.Entry

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The edge list as launched. -/
abbrev edges (c : Dev nD) := m ((c : Thread nD τ).loc main_arg1)

/-! ## The first stretch, from the launch memory -/

theorem sources1 (c : Dev nD) : W1 m ρ c (Proc.devRef .tc main_v3) = Cert.Gcn.sources (F := Ideal) (edges m c) := by
  dsimp only [W1, hostOps0]
  after_results_simp <;> rfl
theorem targets1 (c : Dev nD) : W1 m ρ c (Proc.devRef .tc main_v6) = Cert.Gcn.targets (F := Ideal) (edges m c) := by
  dsimp only [W1, hostOps0]
  after_results_simp <;> rfl
theorem positive1 (c : Dev nD) : W1 m ρ c (Proc.devRef .tc main_v12) = Cert.Gcn.degreePositive (F := Ideal) (edges m c) := by
  dsimp only [W1, hostOps0]
  after_results_simp <;> rfl
theorem rsqrt1 (c : Dev nD) : W1 m ρ c (Proc.devRef .tc main_v13) = Cert.Gcn.degreeRsqrt (F := Ideal) (edges m c) := by
  dsimp only [W1, hostOps0]
  after_results_simp <;> rfl
theorem zero1 (c : Dev nD) : W1 m ρ c (Proc.devRef .tc main_cst_2) = Cert.Gcn.zeroScalar (F := Ideal) := by
  dsimp only [W1, hostOps0]
  after_results_simp <;> rfl

/-! ## The second stretch (the outlined choice), from any contents -/

theorem choice2 (U : Valuation τ sig (Elt Ideal)) :
    StableHlo.after hostOps0_1 U (Proc.devRef .tc main_v14)
      = Cert.Gcn.invSqrtFrom (F := Ideal) (U (Proc.devRef .tc main_v12)) (U (Proc.devRef .tc main_v13)) (U (Proc.devRef .tc main_cst_2)) := by
  dsimp only [hostOps0_1]
  after_results_simp <;> rfl
theorem sources2 (U : Valuation τ sig (Elt Ideal)) :
    StableHlo.after hostOps0_1 U (Proc.devRef .tc main_v3) = U (Proc.devRef .tc main_v3) := by
  dsimp only [hostOps0_1]
  after_results_simp <;> rfl
theorem targets2 (U : Valuation τ sig (Elt Ideal)) :
    StableHlo.after hostOps0_1 U (Proc.devRef .tc main_v6) = U (Proc.devRef .tc main_v6) := by
  dsimp only [hostOps0_1]
  after_results_simp <;> rfl

/-! ## The third stretch, from any contents -/

theorem weights3 (U : Valuation τ sig (Elt Ideal)) :
    StableHlo.after hostOps0_2 U (Proc.devRef .tc main_v30)
      = Cert.Gcn.weightColumnFrom (F := Ideal) (U (Proc.devRef .tc main_v14)) (U (Proc.devRef .tc main_v3)) (U (Proc.devRef .tc main_v6)) := by
  dsimp only [hostOps0_2]
  after_results_simp <;> rfl
theorem sources3 (U : Valuation τ sig (Elt Ideal)) :
    StableHlo.after hostOps0_2 U (Proc.devRef .tc main_v3) = U (Proc.devRef .tc main_v3) := by
  dsimp only [hostOps0_2]
  after_results_simp <;> rfl
theorem targets3 (U : Valuation τ sig (Elt Ideal)) :
    StableHlo.after hostOps0_2 U (Proc.devRef .tc main_v6) = U (Proc.devRef .tc main_v6) := by
  dsimp only [hostOps0_2]
  after_results_simp <;> rfl

/-! ## Composed: the first region's entry -/

/-- At the first region's entry the sources buffer holds the specification's message sources. -/
theorem sources_eq (c : Dev nD) : W3 m ρ c (Proc.devRef .tc main_v3) = Cert.Gcn.sources (F := Ideal) (edges m c) :=
  (sources3 (W2 m ρ c)).trans ((sources2 (W1 m ρ c)).trans (sources1 m ρ c))

/-- At the first region's entry the targets buffer holds the specification's message targets. -/
theorem targets_eq (c : Dev nD) : W3 m ρ c (Proc.devRef .tc main_v6) = Cert.Gcn.targets (F := Ideal) (edges m c) :=
  (targets3 (W2 m ρ c)).trans ((targets2 (W1 m ρ c)).trans (targets1 m ρ c))

/-- At the first region's entry the weight buffer holds the specification's column of message weights. -/
theorem weights_eq (c : Dev nD) : W3 m ρ c (Proc.devRef .tc main_v30) = Cert.Gcn.weightColumn (F := Ideal) (edges m c) := by
  refine (weights3 (W2 m ρ c)).trans ?_
  show Cert.Gcn.weightColumnFrom (F := Ideal) (StableHlo.after hostOps0_1 (W1 m ρ c) (Proc.devRef .tc main_v14))
      (StableHlo.after hostOps0_1 (W1 m ρ c) (Proc.devRef .tc main_v3)) (StableHlo.after hostOps0_1 (W1 m ρ c) (Proc.devRef .tc main_v6)) = _
  rw [choice2, sources2, targets2, positive1, rsqrt1, zero1, sources1, targets1]
  rfl

/-! ## The arguments: no host operation before the first region writes one -/

theorem arg0_eq (c : Dev nD) : W3 m ρ c (Proc.devRef .tc main_arg0) = m ((c : Thread nD τ).loc main_arg0) := by
  dsimp only [W3, W2, W1, hostOps0, hostOps0_1, hostOps0_2]
  after_results_simp <;> rfl
theorem arg2_eq (c : Dev nD) : W3 m ρ c (Proc.devRef .tc main_arg2) = m ((c : Thread nD τ).loc main_arg2) := by
  dsimp only [W3, W2, W1, hostOps0, hostOps0_1, hostOps0_2]
  after_results_simp <;> rfl
theorem arg3_eq (c : Dev nD) : W3 m ρ c (Proc.devRef .tc main_arg3) = m ((c : Thread nD τ).loc main_arg3) := by
  dsimp only [W3, W2, W1, hostOps0, hostOps0_1, hostOps0_2]
  after_results_simp <;> rfl
theorem arg4_eq (c : Dev nD) : W3 m ρ c (Proc.devRef .tc main_arg4) = m ((c : Thread nD τ).loc main_arg4) := by
  dsimp only [W3, W2, W1, hostOps0, hostOps0_1, hostOps0_2]
  after_results_simp <;> rfl
theorem arg5_eq (c : Dev nD) : W3 m ρ c (Proc.devRef .tc main_arg5) = m ((c : Thread nD τ).loc main_arg5) := by
  dsimp only [W3, W2, W1, hostOps0, hostOps0_1, hostOps0_2]
  after_results_simp <;> rfl

end Cert.KernelIdeal.Entry

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.LibHostForms.lean ====
/-
  Host-side readings at an entry (p, q), on the extended reals and for variable extents.

  A bias kept as a row: the host's broadcast of a vector [b] to a row [1, b] along axis 1 reads at (0, q) the entry q,
  and its broadcast of a row [1, b] to [a, b] reads at (p, q) the row's entry (0, q).  And the host's ordinary matrix
  product — an [a, n] array times an [n, b] array, contracting the second axis of the left with the first of the right,
  no batch axis — is at (p, q) the sum over k of left (p, k) · right (k, q).
-/
import Idealize.ShloMosaic.Lib.Pipeline.Value
import Idealize.ShloMosaic.Lib.ValueIdx
import Idealize.ShloMosaic.PureOps.Ideal.Laws
import proofs.«103927_j22376779612651_1_alg».proof.Proof.LibPlainMatmul

noncomputable section

open scoped BigOperators

namespace Cert.HostForms

open Idealize.ShloMosaic Idealize.ShloMosaic.ValueIdx

variable {α : Type}

/-- The host's broadcast of a vector [b] to a row [1, b] along axis 1 reads, at (z, q), its entry `q`. -/
theorem host_row_apply {b : ℕ} (v : (⟨1, ![b]⟩ : Shape).Idx → α)
    (h : (⟨1, ![b]⟩ : Shape).BroadcastsInDim ⟨2, ![1, b]⟩ ![1]) (z : Fin 1) (q : Fin b) :
    broadcastInDim ⟨2, ![1, b]⟩ ![1] h v (ix2 z q) = v (ix1 q) := by
  refine broadcastInDim_apply _ h v (ix2 z q) (ix1 q) fun ax => ?_
  match ax with
  | ⟨0, _⟩ =>
    show q.val = if b = 1 then 0 else q.val
    split
    · have := q.isLt; omega
    · rfl

/-- The host's broadcast of a row [1, b] to [a, b] reads, at (p, q), the row's entry of column `q`. -/
theorem host_row_repeat_apply {a b : ℕ} (u : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h u (ix2 p q) = u (ix2 (0 : Fin 1) q) := by
  refine broadcastInDim_apply _ h u (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- The host's ordinary product: at (p, q) the sum over k of left (p, k) · right (k, q). -/
theorem host_product_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    Host.dotGeneral (F := Ideal) (Cert.PlainMatmul.dims wf) prec L R (ix2 p q)
      = ∑ k : Fin n, L (ix2 p k) * R (ix2 k q) := by
  simp only [Host.dotGeneral]
  rw [Ideal.dotGeneral_apply, ← Equiv.sum_comp (contrEquiv1 (Cert.PlainMatmul.dims wf) n rfl rfl).symm]
  refine Finset.sum_congr rfl fun k _ => ?_
  have hk := contrEquiv1_symm_val (Cert.PlainMatmul.dims wf) n rfl rfl k
  have el : (Cert.PlainMatmul.dims wf).lhsIdx (ix2 p q) ((contrEquiv1 (Cert.PlainMatmul.dims wf) n rfl rfl).symm k) = ix2 p k :=
    funext fun ax => Fin.ext (by
      match ax with
      | ⟨0, _⟩ => rfl
      | ⟨1, _⟩ => exact ((Cert.PlainMatmul.dims wf).lhsIdx_val_of_single rfl _ _).trans hk)
  have er : (Cert.PlainMatmul.dims wf).rhsIdx (ix2 p q) ((contrEquiv1 (Cert.PlainMatmul.dims wf) n rfl rfl).symm k) = ix2 k q :=
    funext fun ax => Fin.ext (by
      match ax with
      | ⟨0, _⟩ => exact ((Cert.PlainMatmul.dims wf).rhsIdx_val_of_single rfl _ _).trans hk
      | ⟨1, _⟩ => rfl)
  rw [el, er]

end Cert.HostForms

end
-- ==== Proof.HiddenProduct.lean ====
/-
  The first product region: the node features times the first layer's weights.

  The region runs on a grid of 25 points; point t stages rows 2000·t … 2000·t + 1999 of the [50000, 256] feature array
  and the whole [256, 128] weight array, and writes back the same rows of the [50000, 128] result.  The body multiplies
  the row block by the weights onto a zero accumulator.  On the extended reals that is, at (p, q) of the block, the sum
  over k of block (p, k) · weights (k, q): the reference's one product of the whole arrays read at row 2000·t + p.  The
  25 blocks tile the rows, so the array after the region is the product of the arrays the region finds.
-/
import proofs.«103927_j22376779612651_1_alg».proof.Proof.Gen.KernelIdeal.Frame
import proofs.«103927_j22376779612651_1_alg».proof.Proof.Spec
import proofs.«103927_j22376779612651_1_alg».proof.Proof.LibPlainMatmul
import proofs.«103927_j22376779612651_1_alg».proof.Proof.LibHostForms
import Idealize.ShloMosaic.Lib.Pipeline.Value
import Idealize.ShloMosaic.Lib.ValueIdx

set_option maxRecDepth 16384

noncomputable section

open scoped BigOperators

namespace Cert.KernelIdeal.HiddenProduct

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin2 : (![0, 0] : Fin 2 → Nat) = fun _ => 0 := funext fun a => by fin_cases a <;> rfl

/-- What the body stores, at row p and column q of its block: the sum over k of the row block's entry (p, k) times the
    weights' entry (k, q) (the change of float format before the product is the identity on the extended reals). -/
theorem stored_apply (x : Vec Ideal S2000x256 .f32) (w : Vec Ideal S256x128 .f32) (p : Fin 2000) (q : Fin 128) :
    k0_pay1 x w (ix2 p q) = ∑ k : Fin 256, x (ix2 p k) * w (ix2 k q) := by
  unfold k0_pay1
  exact Cert.PlainMatmul.zero_acc_apply (a := 2000) (n := 256) (b := 128) (φ₁ := .bf16) (φ₂ := .bf16) dot_S2000x256_S256x128_S2000x128_1_0_0_1_n_n.wf none
    (truncf .bf16 x bitsLt_bf16_f32) (truncf .bf16 w bitsLt_bf16_f32) p q

/-- The specification's product at row r and column q: the sum over k of left (r, k) times right (k, q). -/
theorem stage_apply (A : (⟨S50000x256, .f32⟩ : BufTy).Contents (Elt Ideal)) (W : (⟨S256x128, .f32⟩ : BufTy).Contents (Elt Ideal))
    (r : Fin 50000) (q : Fin 128) :
    Cert.Gcn.product1 A W (ix2 r q) = ∑ k : Fin 256, A (ix2 r k) * W (ix2 k q) := by
  unfold Cert.Gcn.product1
  exact Cert.HostForms.host_product_apply (a := 50000) (n := 256) (b := 128) Cert.ReferenceIdeal.dot_S50000x256_S256x128_S50000x128_1_0_0_1_n_n.wf none A W r q

/-- An entry the body stores is the specification's entry wherever the block's row is the array's row r and the
    staged weights are the weights. -/
theorem stored_eq (x : Vec Ideal S2000x256 .f32) (w : Vec Ideal S256x128 .f32)
    (A : (⟨S50000x256, .f32⟩ : BufTy).Contents (Elt Ideal)) (W : (⟨S256x128, .f32⟩ : BufTy).Contents (Elt Ideal))
    (p : Fin 2000) (q : Fin 128) (r : Fin 50000)
    (hx : ∀ k : Fin 256, x (ix2 p k) = A (ix2 r k)) (hw : ∀ k : Fin 256, w (ix2 k q) = W (ix2 k q)) :
    k0_pay1 x w (ix2 p q) = Cert.Gcn.product1 A W (ix2 r q) := by
  rw [stored_apply, stage_apply]
  exact Finset.sum_congr rfl fun k _ => by rw [hx k, hw k]

/-- The block indices over the grid: point t takes rows t·2000 … of the left array and of the result, all their
    columns, and the whole weight array. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the specification's product of the arrays the region finds. -/
theorem flushed_eq (c : Dev nD) (t : Fin cfg0.N) :
    (dat0 V c).flushed 2 t
      = ((cfg0.win 2).blk t).view.read (Elt Ideal) (Cert.Gcn.product1 (V c main_arg0) (V c main_arg2)) := by
  show (cfg0.win 2).cut (grid0.coords t) ((dat0 V c).after 2 t) = _
  rw [after0_2]
  unfold out0_2
  rw [View.canon_unit_zero origin2]
  simp only [View.ld_unit_zero (S := S2000x256) origin2, View.ld_unit_zero (S := S256x128) origin2]
  obtain ⟨e0, e1, e2, e3, e4, e5⟩ := block_indices t
  have ht : t.val < 25 := lt_of_lt_of_eq t.isLt N_0
  funext j
  obtain ⟨p, q, rfl⟩ : ∃ (p : Fin 2000) (q : Fin 128), j = ix2 p q := ⟨j 0, j 1, eq_ix2 j⟩
  have hp := p.isLt
  have hemb : ((cfg0.win 2).blk t).view.emb (ix2 p q) = ix2 (⟨t.val * 2000 + p.val, by omega⟩ : Fin 50000) q := by
    funext a; apply Fin.ext
    match a with
    | ⟨0, _⟩ => show win0_2.index t (0 : Fin 2) * 2000 + 1 * p.val = t.val * 2000 + p.val; omega
    | ⟨1, _⟩ => show win0_2.index t (1 : Fin 2) * 128 + 1 * q.val = q.val; omega
  show k0_pay1 (iblk0 V c 0 t) (iblk0 V c 1 t) (ix2 p q)
      = Cert.Gcn.product1 (V c main_arg0) (V c main_arg2) (((cfg0.win 2).blk t).view.emb (ix2 p q))
  rw [hemb]
  refine stored_eq _ _ _ _ p q _ (fun k => ?_) (fun k => ?_)
  · show V c main_arg0 (((cfg0.win 0).blk t).view.emb (ix2 p k)) = V c main_arg0 (ix2 (⟨t.val * 2000 + p.val, by omega⟩ : Fin 50000) k)
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 256 + 1 * k.val = k.val; omega
  · show V c main_arg2 (((cfg0.win 1).blk t).view.emb (ix2 k q)) = V c main_arg2 (ix2 k q)
    refine congrArg _ (funext fun a => Fin.ext ?_)
    match a with
    | ⟨0, _⟩ => show win0_1.index t (0 : Fin 2) * 256 + 1 * k.val = k.val; omega
    | ⟨1, _⟩ => show win0_1.index t (1 : Fin 2) * 128 + 1 * q.val = q.val; omega

/-- An index of the result array lies in point t's block iff each coordinate lies in the block's range on its axis. -/
theorem mem_block (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v31).slice (win0_2.rect t)).set ↔ _
  rw [View.set_slice_whole, Rect.mem_set_unit]
  exact Iff.rfl

/-- Every entry of the result array is written by the point its row falls to: row r by point r / 2000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 2000 < cfg0.N := lt_of_lt_of_eq (by omega : (i 0).val / 2000 < 25) N_0.symm
  refine ⟨⟨(i 0).val / 2000, hN⟩, flush0_2 _, ?_⟩
  obtain ⟨e0, e1, e2, e3, e4, e5⟩ := block_indices ⟨(i 0).val / 2000, hN⟩
  rw [mem_block]
  intro a
  match a with
  | ⟨0, _⟩ => show win0_2.index _ (0 : Fin 2) * 2000 ≤ (i 0).val ∧ (i 0).val < win0_2.index _ (0 : Fin 2) * 2000 + 2000; rw [e4]; show (i 0).val / 2000 * 2000 ≤ (i 0).val ∧ (i 0).val < (i 0).val / 2000 * 2000 + 2000; omega
  | ⟨1, _⟩ => show win0_2.index _ (1 : Fin 2) * 128 ≤ (i 1).val ∧ (i 1).val < win0_2.index _ (1 : Fin 2) * 128 + 128; rw [e5]; omega

/-- The result array after the region: the specification's product of the arrays the region finds. -/
theorem final (c : Dev nD) :
    (dat0 V c).arrAt 2 cfg0.N = Cert.Gcn.product1 (V c main_arg0) (V c main_arg2) :=
  (dat0 V c).arrAt_eq_of_cover 2 _ (fun t _ => flushed_eq V c t) covered

end Cert.KernelIdeal.HiddenProduct

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.HiddenBias.lean ====
/-
  The first bias region: the bias added to every row of the first aggregate, negative entries replaced by zero.

  The region runs on a grid of 5 points; point t stages rows 10000·t … 10000·t + 9999 of the [50000, 128] aggregate and
  the whole [128] bias, and writes back the same rows of the result.  The body keeps the bias as a row [1, 128],
  repeats it down the 10000 rows, adds, and takes the maximum with zero.  At an entry (p, q) of the block that is the
  block's entry plus the bias of column q, not below zero — the reference's add of the bias broadcast to [50000, 128]
  followed by its maximum with the zero array, read at the entry's place (10000·t + p, q) in the array.  The five blocks
  tile the rows, so the array after the region is that stage of the arrays the region finds.
-/
import proofs.«103927_j22376779612651_1_alg».proof.Proof.Gen.KernelIdeal.Frame
import proofs.«103927_j22376779612651_1_alg».proof.Proof.Spec
import proofs.«103927_j22376779612651_1_alg».proof.Proof.LibRowOps
import proofs.«103927_j22376779612651_1_alg».proof.Proof.LibHostForms
import Idealize.ShloMosaic.Lib.Pipeline.Value
import Idealize.ShloMosaic.Lib.ValueIdx
import Idealize.ShloMosaic.Lib.ValueLayout
import Idealize.ShloMosaic.Lib.IdealHost

set_option maxRecDepth 16384

noncomputable section

open scoped BigOperators

namespace Cert.KernelIdeal.HiddenBias

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- What the body stores, at row p and column q of its block: the block's entry plus the bias of column q, or zero if that is negative. -/
theorem stored_apply (b : Vec Ideal S128 .f32) (x : Vec Ideal S10000x128 .f32) (p : Fin 10000) (q : Fin 128) :
    k1_pay1 b x (ix2 p q) = max (x (ix2 p q) + b (ix1 q)) (Ideal.ofBits .f32 0x00000000#32) := by
  unfold k1_pay1
  show max (shapeCast S10000x128 x shapeCasts_S10000x128_S10000x128 (ix2 p q)
      + broadcastTo S10000x128 (shapeCast S1x128 b shapeCasts_S128_S1x128) broadcasts_S1x128_S10000x128 (ix2 p q)) _ = _
  rw [shapeCast_self, Cert.RowOps.row_repeated_apply]
  rfl

/-- The same stage of the specification at row r and column q. -/
theorem stage_apply (A : (⟨S50000x128, .f32⟩ : BufTy).Contents (Elt Ideal)) (b : (⟨S128, .f32⟩ : BufTy).Contents (Elt Ideal))
    (r : Fin 50000) (q : Fin 128) :
    Cert.Gcn.biasRelu A b (ix2 r q) = max (A (ix2 r q) + b (ix1 q)) (Ideal.ofBits .f32 0x00000000#32) := by
  unfold Cert.Gcn.biasRelu
  rw [maximumf_apply, addf_apply, Cert.HostForms.host_row_repeat_apply, Cert.HostForms.host_row_apply, broadcastInDim_scalar_apply, constant_apply]

/-- An entry the body stores is the specification's entry wherever the block's entry is the array's. -/
theorem stored_eq (b : Vec Ideal S128 .f32) (x : Vec Ideal S10000x128 .f32)
    (A : (⟨S50000x128, .f32⟩ : BufTy).Contents (Elt Ideal)) (b' : (⟨S128, .f32⟩ : BufTy).Contents (Elt Ideal))
    (p : Fin 10000) (q : Fin 128) (r : Fin 50000)
    (hx : x (ix2 p q) = A (ix2 r q)) (hb : b (ix1 q) = b' (ix1 q)) :
    k1_pay1 b x (ix2 p q) = Cert.Gcn.biasRelu A b' (ix2 r q) := by
  rw [stored_apply, stage_apply, hx, hb]

/-- The block indices over the grid: point t takes rows t·10000 … of the array and of the result, all columns, and the whole bias. -/
theorem block_indices : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- What point t writes back is block t of the specification's stage of the arrays the region finds. -/
theorem flushed_eq (c : Dev nD) (t : Fin cfg1.N) :
    (dat1 V c).flushed 2 t
      = ((cfg1.win 2).blk t).view.read (Elt Ideal) (Cert.Gcn.biasRelu (V c main_v43) (V c main_arg3)) := by
  show (cfg1.win 2).cut (grid1.coords t) ((dat1 V c).after 2 t) = _
  rw [after1_2]
  unfold out1_2
  rw [View.canon_unit_zero origin2]
  simp only [View.ld_unit_zero (S := S128) origin1, View.ld_unit_zero (S := S10000x128) origin2]
  obtain ⟨e0, e1, e2, e3, e4⟩ := block_indices t
  have ht : t.val < 5 := lt_of_lt_of_eq t.isLt N_1
  funext j
  obtain ⟨p, q, rfl⟩ : ∃ (p : Fin 10000) (q : Fin 128), j = ix2 p q := ⟨j 0, j 1, eq_ix2 j⟩
  have hp := p.isLt
  have hemb : ((cfg1.win 2).blk t).view.emb (ix2 p q) = ix2 (⟨t.val * 10000 + p.val, by omega⟩ : Fin 50000) q := by
    funext a; apply Fin.ext
    match a with
    | ⟨0, _⟩ => show win1_2.index t (0 : Fin 2) * 10000 + 1 * p.val = t.val * 10000 + p.val; omega
    | ⟨1, _⟩ => show win1_2.index t (1 : Fin 2) * 128 + 1 * q.val = q.val; omega
  show k1_pay1 (iblk1 V c 1 t) (iblk1 V c 0 t) (ix2 p q)
      = Cert.Gcn.biasRelu (V c main_v43) (V c main_arg3) (((cfg1.win 2).blk t).view.emb (ix2 p q))
  rw [hemb]
  refine stored_eq _ _ _ _ p q _ ?_ ?_
  · show V c main_v43 (((cfg1.win 0).blk t).view.emb (ix2 p q)) = V c main_v43 (ix2 (⟨t.val * 10000 + p.val, by omega⟩ : Fin 50000) q)
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 128 + 1 * q.val = q.val; omega
  · show V c main_arg3 (((cfg1.win 1).blk t).view.emb (ix1 q)) = V c main_arg3 (ix1 q)
    refine congrArg _ (funext fun a => Fin.ext ?_)
    match a with
    | ⟨0, _⟩ => show win1_1.index t (0 : Fin 1) * 128 + 1 * q.val = q.val; omega

/-- An index of the result array lies in point t's block iff each coordinate lies in the block's range on its axis. -/
theorem mem_block (t : Fin cfg1.N) (i : S50000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v44).slice (win1_2.rect t)).set ↔ _
  rw [View.set_slice_whole, Rect.mem_set_unit]
  exact Iff.rfl

/-- Every entry of the result array is written by the point its row falls to: row r by point r / 10000. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : (i 0).val / 10000 < cfg1.N := lt_of_lt_of_eq (by omega : (i 0).val / 10000 < 5) N_1.symm
  refine ⟨⟨(i 0).val / 10000, hN⟩, flush1_2 _, ?_⟩
  obtain ⟨e0, e1, e2, e3, e4⟩ := block_indices ⟨(i 0).val / 10000, hN⟩
  rw [mem_block]
  intro a
  match a with
  | ⟨0, _⟩ => show win1_2.index _ (0 : Fin 2) * 10000 ≤ (i 0).val ∧ (i 0).val < win1_2.index _ (0 : Fin 2) * 10000 + 10000; rw [e3]; show (i 0).val / 10000 * 10000 ≤ (i 0).val ∧ (i 0).val < (i 0).val / 10000 * 10000 + 10000; omega
  | ⟨1, _⟩ => show win1_2.index _ (1 : Fin 2) * 128 ≤ (i 1).val ∧ (i 1).val < win1_2.index _ (1 : Fin 2) * 128 + 128; rw [e4]; omega

/-- The result array after the region: the specification's stage of the arrays the region finds. -/
theorem final (c : Dev nD) :
    (dat1 V c).arrAt 2 cfg1.N = Cert.Gcn.biasRelu (V c main_v43) (V c main_arg3) :=
  (dat1 V c).arrAt_eq_of_cover 2 _ (fun t _ => flushed_eq V c t) covered

end Cert.KernelIdeal.HiddenBias

end
-- ==== Proof.OutputProduct.lean ====
/-
  The second product region: the hidden features times the second layer's weights.

  The region runs on a grid of 25 points; point t stages rows 2000·t … 2000·t + 1999 of the [50000, 128] hidden array
  and the whole [128, 64] weight array, and writes back the same rows of the [50000, 64] result.  The body multiplies the
  row block by the weights onto a zero accumulator: at (p, q) of the block the sum over k of block (p, k) · weights
  (k, q), the reference's product of the whole arrays read at row 2000·t + p.  The 25 blocks tile the rows.
-/
import proofs.«103927_j22376779612651_1_alg».proof.Proof.Gen.KernelIdeal.Frame
import proofs.«103927_j22376779612651_1_alg».proof.Proof.Spec
import proofs.«103927_j22376779612651_1_alg».proof.Proof.LibPlainMatmul
import proofs.«103927_j22376779612651_1_alg».proof.Proof.LibHostForms
import Idealize.ShloMosaic.Lib.Pipeline.Value
import Idealize.ShloMosaic.Lib.ValueIdx

set_option maxRecDepth 16384

noncomputable section

open scoped BigOperators

namespace Cert.KernelIdeal.OutputProduct

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin2 : (![0, 0] : Fin 2 → Nat) = fun _ => 0 := funext fun a => by fin_cases a <;> rfl

/-- What the body stores, at row p and column q of its block: the sum over k of the row block's entry (p, k) times the
    weights' entry (k, q) (the change of float format before the product is the identity on the extended reals). -/
theorem stored_apply (x : Vec Ideal S2000x128 .f32) (w : Vec Ideal S128x64 .f32) (p : Fin 2000) (q : Fin 64) :
    k2_pay1 x w (ix2 p q) = ∑ k : Fin 128, x (ix2 p k) * w (ix2 k q) := by
  unfold k2_pay1
  rw [shapeCast_self]
  exact Cert.PlainMatmul.zero_acc_apply (a := 2000) (n := 128) (b := 64) (φ₁ := .bf16) (φ₂ := .bf16) dot_S2000x128_S128x64_S2000x64_1_0_0_1_n_n.wf none
    (truncf .bf16 x bitsLt_bf16_f32) (truncf .bf16 w bitsLt_bf16_f32) p q

/-- The specification's product at row r and column q: the sum over k of left (r, k) times right (k, q). -/
theorem stage_apply (A : (⟨S50000x128, .f32⟩ : BufTy).Contents (Elt Ideal)) (W : (⟨S128x64, .f32⟩ : BufTy).Contents (Elt Ideal))
    (r : Fin 50000) (q : Fin 64) :
    Cert.Gcn.product2 A W (ix2 r q) = ∑ k : Fin 128, A (ix2 r k) * W (ix2 k q) := by
  unfold Cert.Gcn.product2
  exact Cert.HostForms.host_product_apply (a := 50000) (n := 128) (b := 64) Cert.ReferenceIdeal.dot_S50000x128_S128x64_S50000x64_1_0_0_1_n_n.wf none A W r q

/-- An entry the body stores is the specification's entry wherever the block's row is the array's row r and the
    staged weights are the weights. -/
theorem stored_eq (x : Vec Ideal S2000x128 .f32) (w : Vec Ideal S128x64 .f32)
    (A : (⟨S50000x128, .f32⟩ : BufTy).Contents (Elt Ideal)) (W : (⟨S128x64, .f32⟩ : BufTy).Contents (Elt Ideal))
    (p : Fin 2000) (q : Fin 64) (r : Fin 50000)
    (hx : ∀ k : Fin 128, x (ix2 p k) = A (ix2 r k)) (hw : ∀ k : Fin 128, w (ix2 k q) = W (ix2 k q)) :
    k2_pay1 x w (ix2 p q) = Cert.Gcn.product2 A W (ix2 r q) := by
  rw [stored_apply, stage_apply]
  exact Finset.sum_congr rfl fun k _ => by rw [hx k, hw k]

/-- The block indices over the grid: point t takes rows t·2000 … of the left array and of the result, all their
    columns, and the whole weight array. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the specification's product of the arrays the region finds. -/
theorem flushed_eq (c : Dev nD) (t : Fin cfg2.N) :
    (dat2 V c).flushed 2 t
      = ((cfg2.win 2).blk t).view.read (Elt Ideal) (Cert.Gcn.product2 (V c main_v44) (V c main_arg4)) := by
  show (cfg2.win 2).cut (grid2.coords t) ((dat2 V c).after 2 t) = _
  rw [after2_2]
  unfold out2_2
  rw [View.canon_unit_zero origin2]
  simp only [View.ld_unit_zero (S := S2000x128) origin2, View.ld_unit_zero (S := S128x64) origin2]
  obtain ⟨e0, e1, e2, e3, e4, e5⟩ := block_indices t
  have ht : t.val < 25 := lt_of_lt_of_eq t.isLt N_2
  funext j
  obtain ⟨p, q, rfl⟩ : ∃ (p : Fin 2000) (q : Fin 64), j = ix2 p q := ⟨j 0, j 1, eq_ix2 j⟩
  have hp := p.isLt
  have hemb : ((cfg2.win 2).blk t).view.emb (ix2 p q) = ix2 (⟨t.val * 2000 + p.val, by omega⟩ : Fin 50000) q := by
    funext a; apply Fin.ext
    match a with
    | ⟨0, _⟩ => show win2_2.index t (0 : Fin 2) * 2000 + 1 * p.val = t.val * 2000 + p.val; omega
    | ⟨1, _⟩ => show win2_2.index t (1 : Fin 2) * 64 + 1 * q.val = q.val; omega
  show k2_pay1 (iblk2 V c 0 t) (iblk2 V c 1 t) (ix2 p q)
      = Cert.Gcn.product2 (V c main_v44) (V c main_arg4) (((cfg2.win 2).blk t).view.emb (ix2 p q))
  rw [hemb]
  refine stored_eq _ _ _ _ p q _ (fun k => ?_) (fun k => ?_)
  · show V c main_v44 (((cfg2.win 0).blk t).view.emb (ix2 p k)) = V c main_v44 (ix2 (⟨t.val * 2000 + p.val, by omega⟩ : Fin 50000) k)
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 128 + 1 * k.val = k.val; omega
  · show V c main_arg4 (((cfg2.win 1).blk t).view.emb (ix2 k q)) = V c main_arg4 (ix2 k q)
    refine congrArg _ (funext fun a => Fin.ext ?_)
    match a with
    | ⟨0, _⟩ => show win2_1.index t (0 : Fin 2) * 128 + 1 * k.val = k.val; omega
    | ⟨1, _⟩ => show win2_1.index t (1 : Fin 2) * 64 + 1 * q.val = q.val; omega

/-- An index of the result array lies in point t's block iff each coordinate lies in the block's range on its axis. -/
theorem mem_block (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v45).slice (win2_2.rect t)).set ↔ _
  rw [View.set_slice_whole, Rect.mem_set_unit]
  exact Iff.rfl

/-- Every entry of the result array is written by the point its row falls to: row r by point r / 2000. -/
theorem covered (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : (i 0).val / 2000 < cfg2.N := lt_of_lt_of_eq (by omega : (i 0).val / 2000 < 25) N_2.symm
  refine ⟨⟨(i 0).val / 2000, hN⟩, flush2_2 _, ?_⟩
  obtain ⟨e0, e1, e2, e3, e4, e5⟩ := block_indices ⟨(i 0).val / 2000, hN⟩
  rw [mem_block]
  intro a
  match a with
  | ⟨0, _⟩ => show win2_2.index _ (0 : Fin 2) * 2000 ≤ (i 0).val ∧ (i 0).val < win2_2.index _ (0 : Fin 2) * 2000 + 2000; rw [e4]; show (i 0).val / 2000 * 2000 ≤ (i 0).val ∧ (i 0).val < (i 0).val / 2000 * 2000 + 2000; omega
  | ⟨1, _⟩ => show win2_2.index _ (1 : Fin 2) * 64 ≤ (i 1).val ∧ (i 1).val < win2_2.index _ (1 : Fin 2) * 64 + 64; rw [e5]; omega

/-- The result array after the region: the specification's product of the arrays the region finds. -/
theorem final (c : Dev nD) :
    (dat2 V c).arrAt 2 cfg2.N = Cert.Gcn.product2 (V c main_v44) (V c main_arg4) :=
  (dat2 V c).arrAt_eq_of_cover 2 _ (fun t _ => flushed_eq V c t) covered

end Cert.KernelIdeal.OutputProduct

end
-- ==== Proof.OutputBias.lean ====
/-
  The last bias region: the second bias added to every row of the second aggregate.

  The region runs on a grid of 5 points; point t stages rows 10000·t … 10000·t + 9999 of the [50000, 64] aggregate and
  the whole [64] bias, and writes back the same rows of the result.  The body keeps the bias as a row [1, 64], repeats
  it down the rows and adds: at an entry (p, q) of the block, the block's entry plus the bias of column q — the
  reference's add of the bias broadcast to [50000, 64], read at (10000·t + p, q).  The five blocks tile the rows.
-/
import proofs.«103927_j22376779612651_1_alg».proof.Proof.Gen.KernelIdeal.Frame
import proofs.«103927_j22376779612651_1_alg».proof.Proof.Spec
import proofs.«103927_j22376779612651_1_alg».proof.Proof.LibRowOps
import proofs.«103927_j22376779612651_1_alg».proof.Proof.LibHostForms
import Idealize.ShloMosaic.Lib.Pipeline.Value
import Idealize.ShloMosaic.Lib.ValueIdx
import Idealize.ShloMosaic.Lib.ValueLayout
import Idealize.ShloMosaic.Lib.IdealHost

set_option maxRecDepth 16384

noncomputable section

open scoped BigOperators

namespace Cert.KernelIdeal.OutputBias

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- What the body stores, at row p and column q of its block: the block's entry plus the bias of column q. -/
theorem stored_apply (b : Vec Ideal S64 .f32) (x : Vec Ideal S10000x64 .f32) (p : Fin 10000) (q : Fin 64) :
    k3_pay1 b x (ix2 p q) = x (ix2 p q) + b (ix1 q) := by
  unfold k3_pay1
  show shapeCast S10000x64 x shapeCasts_S10000x64_S10000x64 (ix2 p q)
      + broadcastTo S10000x64 (shapeCast S1x64 b shapeCasts_S64_S1x64) broadcasts_S1x64_S10000x64 (ix2 p q) = _
  rw [shapeCast_self, Cert.RowOps.row_repeated_apply]

/-- The same stage of the specification at row r and column q. -/
theorem stage_apply (A : (⟨S50000x64, .f32⟩ : BufTy).Contents (Elt Ideal)) (b : (⟨S64, .f32⟩ : BufTy).Contents (Elt Ideal))
    (r : Fin 50000) (q : Fin 64) :
    Cert.Gcn.biasAdd A b (ix2 r q) = A (ix2 r q) + b (ix1 q) := by
  unfold Cert.Gcn.biasAdd
  rw [addf_apply, Cert.HostForms.host_row_repeat_apply, Cert.HostForms.host_row_apply]

/-- An entry the body stores is the specification's entry wherever the block's entry is the array's. -/
theorem stored_eq (b : Vec Ideal S64 .f32) (x : Vec Ideal S10000x64 .f32)
    (A : (⟨S50000x64, .f32⟩ : BufTy).Contents (Elt Ideal)) (b' : (⟨S64, .f32⟩ : BufTy).Contents (Elt Ideal))
    (p : Fin 10000) (q : Fin 64) (r : Fin 50000)
    (hx : x (ix2 p q) = A (ix2 r q)) (hb : b (ix1 q) = b' (ix1 q)) :
    k3_pay1 b x (ix2 p q) = Cert.Gcn.biasAdd A b' (ix2 r q) := by
  rw [stored_apply, stage_apply, hx, hb]

/-- The block indices over the grid: point t takes rows t·10000 … of the array and of the result, all columns, and the whole bias. -/
theorem block_indices : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- What point t writes back is block t of the specification's stage of the arrays the region finds. -/
theorem flushed_eq (c : Dev nD) (t : Fin cfg3.N) :
    (dat3 V c).flushed 2 t
      = ((cfg3.win 2).blk t).view.read (Elt Ideal) (Cert.Gcn.biasAdd (V c main_v57) (V c main_arg5)) := by
  show (cfg3.win 2).cut (grid3.coords t) ((dat3 V c).after 2 t) = _
  rw [after3_2]
  unfold out3_2
  rw [View.canon_unit_zero origin2]
  simp only [View.ld_unit_zero (S := S64) origin1, View.ld_unit_zero (S := S10000x64) origin2]
  obtain ⟨e0, e1, e2, e3, e4⟩ := block_indices t
  have ht : t.val < 5 := lt_of_lt_of_eq t.isLt N_3
  funext j
  obtain ⟨p, q, rfl⟩ : ∃ (p : Fin 10000) (q : Fin 64), j = ix2 p q := ⟨j 0, j 1, eq_ix2 j⟩
  have hp := p.isLt
  have hemb : ((cfg3.win 2).blk t).view.emb (ix2 p q) = ix2 (⟨t.val * 10000 + p.val, by omega⟩ : Fin 50000) q := by
    funext a; apply Fin.ext
    match a with
    | ⟨0, _⟩ => show win3_2.index t (0 : Fin 2) * 10000 + 1 * p.val = t.val * 10000 + p.val; omega
    | ⟨1, _⟩ => show win3_2.index t (1 : Fin 2) * 64 + 1 * q.val = q.val; omega
  show k3_pay1 (iblk3 V c 1 t) (iblk3 V c 0 t) (ix2 p q)
      = Cert.Gcn.biasAdd (V c main_v57) (V c main_arg5) (((cfg3.win 2).blk t).view.emb (ix2 p q))
  rw [hemb]
  refine stored_eq _ _ _ _ p q _ ?_ ?_
  · show V c main_v57 (((cfg3.win 0).blk t).view.emb (ix2 p q)) = V c main_v57 (ix2 (⟨t.val * 10000 + p.val, by omega⟩ : Fin 50000) q)
    refine congrArg _ (funext fun a => Fin.ext ?_)
    match a with
    | ⟨0, _⟩ => show win3_0.index t (0 : Fin 2) * 10000 + 1 * p.val = t.val * 10000 + p.val; omega
    | ⟨1, _⟩ => show win3_0.index t (1 : Fin 2) * 64 + 1 * q.val = q.val; omega
  · show V c main_arg5 (((cfg3.win 1).blk t).view.emb (ix1 q)) = V c main_arg5 (ix1 q)
    refine congrArg _ (funext fun a => Fin.ext ?_)
    match a with
    | ⟨0, _⟩ => show win3_1.index t (0 : Fin 1) * 64 + 1 * q.val = q.val; omega

/-- An index of the result array lies in point t's block iff each coordinate lies in the block's range on its axis. -/
theorem mem_block (t : Fin cfg3.N) (i : S50000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v58).slice (win3_2.rect t)).set ↔ _
  rw [View.set_slice_whole, Rect.mem_set_unit]
  exact Iff.rfl

/-- Every entry of the result array is written by the point its row falls to: row r by point r / 10000. -/
theorem covered (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : (i 0).val / 10000 < cfg3.N := lt_of_lt_of_eq (by omega : (i 0).val / 10000 < 5) N_3.symm
  refine ⟨⟨(i 0).val / 10000, hN⟩, flush3_2 _, ?_⟩
  obtain ⟨e0, e1, e2, e3, e4⟩ := block_indices ⟨(i 0).val / 10000, hN⟩
  rw [mem_block]
  intro a
  match a with
  | ⟨0, _⟩ => show win3_2.index _ (0 : Fin 2) * 10000 ≤ (i 0).val ∧ (i 0).val < win3_2.index _ (0 : Fin 2) * 10000 + 10000; rw [e3]; show (i 0).val / 10000 * 10000 ≤ (i 0).val ∧ (i 0).val < (i 0).val / 10000 * 10000 + 10000; omega
  | ⟨1, _⟩ => show win3_2.index _ (1 : Fin 2) * 64 ≤ (i 1).val ∧ (i 1).val < win3_2.index _ (1 : Fin 2) * 64 + 64; rw [e4]; omega

/-- The result array after the region: the specification's stage of the arrays the region finds. -/
theorem final (c : Dev nD) :
    (dat3 V c).arrAt 2 cfg3.N = Cert.Gcn.biasAdd (V c main_v57) (V c main_arg5) :=
  (dat3 V c).arrAt_eq_of_cover 2 _ (fun t _ => flushed_eq V c t) covered

end Cert.KernelIdeal.OutputBias

end
-- ==== Proof.Stages.lean ====
/-
  The kernel program's boundaries, from the first region's entry to the result.

  After the first region the product buffer holds the features times the first weights.  The next stretch of host
  operations is the reference's first aggregation of that product, over the sources, targets and weights the program
  computed before the first region (no segment in between writes those buffers, nor the arguments).  The bias region
  adds the first bias and clips at zero, the second product region multiplies by the second weights, the last stretch
  aggregates again, and the last region adds the second bias.  Boundary by boundary each buffer holds the
  specification's stage of the arguments; the last one is the network.
-/
import proofs.«103927_j22376779612651_1_alg».proof.Proof.Gen.KernelIdeal.Frame
import proofs.«103927_j22376779612651_1_alg».proof.Proof.Spec
import Idealize.ShloMosaic.PureOps.Ideal
import Idealize.ShloMosaic.Lib.StableHlo.Run
import proofs.«103927_j22376779612651_1_alg».proof.Proof.Entry
import proofs.«103927_j22376779612651_1_alg».proof.Proof.HiddenProduct
import proofs.«103927_j22376779612651_1_alg».proof.Proof.HiddenBias
import proofs.«103927_j22376779612651_1_alg».proof.Proof.OutputProduct
import proofs.«103927_j22376779612651_1_alg».proof.Proof.OutputBias

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The arguments as launched, and the specification's stages of them -/

abbrev feats (c : Dev nD) := m ((c : Thread nD τ).loc main_arg0)
abbrev edges (c : Dev nD) := m ((c : Thread nD τ).loc main_arg1)
abbrev weights1 (c : Dev nD) := m ((c : Thread nD τ).loc main_arg2)
abbrev bias1 (c : Dev nD) := m ((c : Thread nD τ).loc main_arg3)
abbrev weights2 (c : Dev nD) := m ((c : Thread nD τ).loc main_arg4)
abbrev bias2 (c : Dev nD) := m ((c : Thread nD τ).loc main_arg5)

/-- The first layer's aggregate of the arguments. -/
abbrev aggregate1 (c : Dev nD) :=
  Cert.Gcn.aggregate128 (F := Ideal) (Cert.Gcn.product1 (F := Ideal) (feats m c) (weights1 m c))
    (Cert.Gcn.sources (F := Ideal) (edges m c)) (Cert.Gcn.targets (F := Ideal) (edges m c)) (Cert.Gcn.weightColumn (F := Ideal) (edges m c))
/-- The hidden features of the arguments. -/
abbrev hidden (c : Dev nD) := Cert.Gcn.biasRelu (F := Ideal) (aggregate1 m c) (bias1 m c)
/-- The second layer's aggregate of the arguments. -/
abbrev aggregate2 (c : Dev nD) :=
  Cert.Gcn.aggregate64 (F := Ideal) (Cert.Gcn.product2 (F := Ideal) (hidden m c) (weights2 m c))
    (Cert.Gcn.sources (F := Ideal) (edges m c)) (Cert.Gcn.targets (F := Ideal) (edges m c)) (Cert.Gcn.weightColumn (F := Ideal) (edges m c))

/-! ## What each segment leaves alone: the buffers read later keep their contents of the first region's entry -/

theorem main_v3_at4 (c : Dev nD) : W4 m ρ c (Proc.devRef .tc main_v3) = W3 m ρ c (Proc.devRef .tc main_v3) := W4_of_ne m ρ c main_v3 (by decide)
theorem main_v3_at5 (c : Dev nD) : W5 m ρ c (Proc.devRef .tc main_v3) = W3 m ρ c (Proc.devRef .tc main_v3) :=
  (StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W5 m ρ c (Proc.devRef .tc main_v3) = W4 m ρ c (Proc.devRef .tc main_v3)).trans (main_v3_at4 m ρ c)
theorem main_v6_at4 (c : Dev nD) : W4 m ρ c (Proc.devRef .tc main_v6) = W3 m ρ c (Proc.devRef .tc main_v6) := W4_of_ne m ρ c main_v6 (by decide)
theorem main_v6_at5 (c : Dev nD) : W5 m ρ c (Proc.devRef .tc main_v6) = W3 m ρ c (Proc.devRef .tc main_v6) :=
  (StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W5 m ρ c (Proc.devRef .tc main_v6) = W4 m ρ c (Proc.devRef .tc main_v6)).trans (main_v6_at4 m ρ c)
theorem main_v30_at4 (c : Dev nD) : W4 m ρ c (Proc.devRef .tc main_v30) = W3 m ρ c (Proc.devRef .tc main_v30) := W4_of_ne m ρ c main_v30 (by decide)
theorem main_v30_at5 (c : Dev nD) : W5 m ρ c (Proc.devRef .tc main_v30) = W3 m ρ c (Proc.devRef .tc main_v30) :=
  (StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W5 m ρ c (Proc.devRef .tc main_v30) = W4 m ρ c (Proc.devRef .tc main_v30)).trans (main_v30_at4 m ρ c)
theorem main_arg3_at4 (c : Dev nD) : W4 m ρ c (Proc.devRef .tc main_arg3) = W3 m ρ c (Proc.devRef .tc main_arg3) := W4_of_ne m ρ c main_arg3 (by decide)
theorem main_arg3_at5 (c : Dev nD) : W5 m ρ c (Proc.devRef .tc main_arg3) = W3 m ρ c (Proc.devRef .tc main_arg3) :=
  (StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W5 m ρ c (Proc.devRef .tc main_arg3) = W4 m ρ c (Proc.devRef .tc main_arg3)).trans (main_arg3_at4 m ρ c)
theorem main_arg4_at4 (c : Dev nD) : W4 m ρ c (Proc.devRef .tc main_arg4) = W3 m ρ c (Proc.devRef .tc main_arg4) := W4_of_ne m ρ c main_arg4 (by decide)
theorem main_arg4_at5 (c : Dev nD) : W5 m ρ c (Proc.devRef .tc main_arg4) = W3 m ρ c (Proc.devRef .tc main_arg4) :=
  (StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W5 m ρ c (Proc.devRef .tc main_arg4) = W4 m ρ c (Proc.devRef .tc main_arg4)).trans (main_arg4_at4 m ρ c)
theorem main_arg5_at4 (c : Dev nD) : W4 m ρ c (Proc.devRef .tc main_arg5) = W3 m ρ c (Proc.devRef .tc main_arg5) := W4_of_ne m ρ c main_arg5 (by decide)
theorem main_arg5_at5 (c : Dev nD) : W5 m ρ c (Proc.devRef .tc main_arg5) = W3 m ρ c (Proc.devRef .tc main_arg5) :=
  (StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W5 m ρ c (Proc.devRef .tc main_arg5) = W4 m ρ c (Proc.devRef .tc main_arg5)).trans (main_arg5_at4 m ρ c)
theorem main_v3_at6 (c : Dev nD) : W6 m ρ c (Proc.devRef .tc main_v3) = W3 m ρ c (Proc.devRef .tc main_v3) := (W6_of_ne m ρ c main_v3 (by decide)).trans (main_v3_at5 m ρ c)
theorem main_v6_at6 (c : Dev nD) : W6 m ρ c (Proc.devRef .tc main_v6) = W3 m ρ c (Proc.devRef .tc main_v6) := (W6_of_ne m ρ c main_v6 (by decide)).trans (main_v6_at5 m ρ c)
theorem main_v30_at6 (c : Dev nD) : W6 m ρ c (Proc.devRef .tc main_v30) = W3 m ρ c (Proc.devRef .tc main_v30) := (W6_of_ne m ρ c main_v30 (by decide)).trans (main_v30_at5 m ρ c)
theorem main_arg4_at6 (c : Dev nD) : W6 m ρ c (Proc.devRef .tc main_arg4) = W3 m ρ c (Proc.devRef .tc main_arg4) := (W6_of_ne m ρ c main_arg4 (by decide)).trans (main_arg4_at5 m ρ c)
theorem main_arg5_at6 (c : Dev nD) : W6 m ρ c (Proc.devRef .tc main_arg5) = W3 m ρ c (Proc.devRef .tc main_arg5) := (W6_of_ne m ρ c main_arg5 (by decide)).trans (main_arg5_at5 m ρ c)
theorem main_v3_at7 (c : Dev nD) : W7 m ρ c (Proc.devRef .tc main_v3) = W3 m ρ c (Proc.devRef .tc main_v3) := (W7_of_ne m ρ c main_v3 (by decide)).trans (main_v3_at6 m ρ c)
theorem main_v6_at7 (c : Dev nD) : W7 m ρ c (Proc.devRef .tc main_v6) = W3 m ρ c (Proc.devRef .tc main_v6) := (W7_of_ne m ρ c main_v6 (by decide)).trans (main_v6_at6 m ρ c)
theorem main_v30_at7 (c : Dev nD) : W7 m ρ c (Proc.devRef .tc main_v30) = W3 m ρ c (Proc.devRef .tc main_v30) := (W7_of_ne m ρ c main_v30 (by decide)).trans (main_v30_at6 m ρ c)
theorem main_arg5_at7 (c : Dev nD) : W7 m ρ c (Proc.devRef .tc main_arg5) = W3 m ρ c (Proc.devRef .tc main_arg5) := (W7_of_ne m ρ c main_arg5 (by decide)).trans (main_arg5_at6 m ρ c)
theorem main_arg5_at8 (c : Dev nD) : W8 m ρ c (Proc.devRef .tc main_arg5) = W3 m ρ c (Proc.devRef .tc main_arg5) :=
  (StableHlo.after_of_forall_not_mem _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W8 m ρ c (Proc.devRef .tc main_arg5) = W7 m ρ c (Proc.devRef .tc main_arg5)).trans (main_arg5_at7 m ρ c)

/-! ## The stages, boundary by boundary -/

/-- After the first region: the product of the features and the first weights. -/
theorem product1_eq (c : Dev nD) :
    W4 m ρ c (Proc.devRef .tc main_v31) = Cert.Gcn.product1 (F := Ideal) (feats m c) (weights1 m c) := by
  refine (W4_arr m ρ c 2).trans ?_
  refine (Cert.KernelIdeal.HiddenProduct.final (V3 m ρ) c).trans ?_
  show Cert.Gcn.product1 (F := Ideal) (W3 m ρ c (Proc.devRef .tc main_arg0)) (W3 m ρ c (Proc.devRef .tc main_arg2)) = _
  rw [Cert.KernelIdeal.Entry.arg0_eq, Cert.KernelIdeal.Entry.arg2_eq]

/-- The stretch after the first region, from any contents: the specification's aggregation of the product buffer over
    the sources, targets and weight buffers. -/
theorem stretch1 (U : Valuation τ sig (Elt Ideal)) :
    StableHlo.after hostOps1 U (Proc.devRef .tc main_v43)
      = Cert.Gcn.aggregate128 (F := Ideal) (U (Proc.devRef .tc main_v31)) (U (Proc.devRef .tc main_v3))
          (U (Proc.devRef .tc main_v6)) (U (Proc.devRef .tc main_v30)) := by
  dsimp only [hostOps1]
  after_results_simp <;> rfl

/-- After the stretch that follows: the first aggregate. -/
theorem aggregate1_eq (c : Dev nD) : W5 m ρ c (Proc.devRef .tc main_v43) = aggregate1 m c := by
  refine (stretch1 (W4 m ρ c)).trans ?_
  rw [product1_eq, main_v3_at4, main_v6_at4, main_v30_at4, Cert.KernelIdeal.Entry.sources_eq, Cert.KernelIdeal.Entry.targets_eq,
    Cert.KernelIdeal.Entry.weights_eq]

/-- After the first bias region: the hidden features. -/
theorem hidden_eq (c : Dev nD) : W6 m ρ c (Proc.devRef .tc main_v44) = hidden m c := by
  refine (W6_arr m ρ c 2).trans ?_
  refine (Cert.KernelIdeal.HiddenBias.final (V5 m ρ) c).trans ?_
  show Cert.Gcn.biasRelu (F := Ideal) (W5 m ρ c (Proc.devRef .tc main_v43)) (W5 m ρ c (Proc.devRef .tc main_arg3)) = _
  rw [aggregate1_eq, main_arg3_at5, Cert.KernelIdeal.Entry.arg3_eq]

/-- After the second product region: the hidden features times the second weights. -/
theorem product2_eq (c : Dev nD) :
    W7 m ρ c (Proc.devRef .tc main_v45) = Cert.Gcn.product2 (F := Ideal) (hidden m c) (weights2 m c) := by
  refine (W7_arr m ρ c 2).trans ?_
  refine (Cert.KernelIdeal.OutputProduct.final (V6 m ρ) c).trans ?_
  show Cert.Gcn.product2 (F := Ideal) (W6 m ρ c (Proc.devRef .tc main_v44)) (W6 m ρ c (Proc.devRef .tc main_arg4)) = _
  rw [hidden_eq, main_arg4_at6, Cert.KernelIdeal.Entry.arg4_eq]

/-- The stretch before the last region, from any contents: the specification's aggregation of the second product buffer. -/
theorem stretch3 (U : Valuation τ sig (Elt Ideal)) :
    StableHlo.after hostOps3 U (Proc.devRef .tc main_v57)
      = Cert.Gcn.aggregate64 (F := Ideal) (U (Proc.devRef .tc main_v45)) (U (Proc.devRef .tc main_v3))
          (U (Proc.devRef .tc main_v6)) (U (Proc.devRef .tc main_v30)) := by
  dsimp only [hostOps3]
  after_results_simp <;> rfl

/-- After the last stretch: the second aggregate. -/
theorem aggregate2_eq (c : Dev nD) : W8 m ρ c (Proc.devRef .tc main_v57) = aggregate2 m c := by
  refine (stretch3 (W7 m ρ c)).trans ?_
  rw [product2_eq, main_v3_at7, main_v6_at7, main_v30_at7, Cert.KernelIdeal.Entry.sources_eq, Cert.KernelIdeal.Entry.targets_eq,
    Cert.KernelIdeal.Entry.weights_eq]

/-- After the last region the result buffer holds the specification's network of the arguments. -/
theorem result_eq (c : Dev nD) :
    W9 m ρ c (Proc.devRef .tc main_v58)
      = Cert.Gcn.network (F := Ideal) (feats m c) (edges m c) (weights1 m c) (bias1 m c) (weights2 m c) (bias2 m c) := by
  refine (W9_arr m ρ c 2).trans ?_
  refine (Cert.KernelIdeal.OutputBias.final (V8 m ρ) c).trans ?_
  show Cert.Gcn.biasAdd (F := Ideal) (W8 m ρ c (Proc.devRef .tc main_v57)) (W8 m ρ c (Proc.devRef .tc main_arg5)) = _
  rw [aggregate2_eq, main_arg5_at8, Cert.KernelIdeal.Entry.arg5_eq]
  rfl

end Cert.KernelIdeal.Stages

end
-- ==== Proof.lean ====
/-
  The kernel program and its reference compute the same two-layer graph convolution on the extended reals.

  Both programs build the message list of the graph from the edge list (every edge, and one self-loop per node), weigh
  each message by the inverse square roots of its two ends' degrees, and apply two layers: features times weights,
  the weighted sum of the source rows into each target, plus a bias; between the layers negative entries become zero.
  The reference does every step with one host operation on whole arrays.  The kernel program does the degree, gather
  and scatter steps with the same host operations and hands the two matrix products and the two bias steps to four
  tiled regions, each working on blocks of 2000 or 10000 rows.  A row block of a product is the product of the row
  block, and a row block of an array plus a bias row is the block of the sum, so each region leaves in its result array
  exactly the reference's operation of the arrays it finds; nothing here needs the inputs finite, and no sum is
  reordered (the product regions round their operands to a shorter float format first, which is the identity on the
  extended reals).

  The modules: Spec names the reference's stages; RefRun is the reference's run and RefSpec reads its result as the
  stages composed; HiddenProduct, HiddenBias, OutputProduct and OutputBias read the four regions' result arrays;
  Entry reads the host operations before the first region; Stages follows the buffers from boundary to boundary;
  KernelRun is the kernel program's run with its result buffer named.  The three frame claims are the generated frame
  certificates' (for the reference, its run with the result forgotten); the ideal pass rewrote nothing, so the
  idealization claim is trivial.
-/
import proofs.«103927_j22376779612651_1_alg».proof.Defs
import proofs.«103927_j22376779612651_1_alg».proof.Proof.Gen.Kernel
import proofs.«103927_j22376779612651_1_alg».proof.Proof.Gen.Kernel.Skeleton
import proofs.«103927_j22376779612651_1_alg».proof.Proof.Gen.Kernel.Launch
import proofs.«103927_j22376779612651_1_alg».proof.Proof.Gen.Kernel.Points
import proofs.«103927_j22376779612651_1_alg».proof.Proof.Gen.Kernel.Frame
import proofs.«103927_j22376779612651_1_alg».proof.Proof.Gen.KernelIdeal
import proofs.«103927_j22376779612651_1_alg».proof.Proof.Gen.KernelIdeal.Skeleton
import proofs.«103927_j22376779612651_1_alg».proof.Proof.Gen.KernelIdeal.Launch
import proofs.«103927_j22376779612651_1_alg».proof.Proof.Gen.KernelIdeal.Points
import proofs.«103927_j22376779612651_1_alg».proof.Proof.Gen.KernelIdeal.Frame
import proofs.«103927_j22376779612651_1_alg».proof.Proof.Gen.ReferenceIdeal
import proofs.«103927_j22376779612651_1_alg».proof.Proof.Gen.Pre_finite_inputs
import proofs.«103927_j22376779612651_1_alg».proof.Proof.RefRun
import proofs.«103927_j22376779612651_1_alg».proof.Proof.RefSpec
import proofs.«103927_j22376779612651_1_alg».proof.Proof.KernelRun
import proofs.«103927_j22376779612651_1_alg».proof.Proof.Stages
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- The idealized kernel program runs and leaves its arguments unchanged. -/
theorem frame_kernel_ideal : Cert.frame_KernelIdeal := fun m ρ _ => Cert.KernelIdeal.Gen.frame m ρ

/-- The idealized reference runs and leaves its arguments unchanged: its run, the result forgotten. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories that agree on the six arguments both programs end with the network of those arguments in their
    result arrays: the kernel program by its boundaries, the reference by its run's term. -/
theorem algebraic : Cert.algebraic_KernelIdeal_ReferenceIdeal := by
  intro m ρ m' ρ' _ hagree
  refine ⟨fun c => Cert.KernelIdeal.Gen.W9 m ρ c (Proc.devRef .tc Cert.KernelIdeal.main_v58),
    Cert.KernelIdeal.Boundary.run (F := Ideal) m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v64 m' c
    = Cert.KernelIdeal.Gen.W9 m ρ c (Proc.devRef .tc Cert.KernelIdeal.main_v58)
  obtain ⟨a0, a1, a2, a3, a4, a5⟩ := hagree c
  rw [Cert.ReferenceIdeal.RefValue.result_eq, Cert.KernelIdeal.Stages.result_eq, a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
